-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S4096x64 : Shape := ⟨2, ![4096, 64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S16x2048x64 .f32) (main_arg1 : FVec F S4096x64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S16x2048x64 : Shape := ⟨3, ![16, 2048, 64]⟩
abbrev S4096x64 : Shape := ⟨2, ![4096, 64]⟩
abbrev S32768x64 : Shape := ⟨2, ![32768, 64]⟩
abbrev S_ : Shape := ⟨0, ![]⟩
abbrev S4096 : Shape := ⟨1, ![4096]⟩
abbrev S4096x1 : Shape := ⟨2, ![4096, 1]⟩
abbrev S64x4096 : Shape := ⟨2, ![64, 4096]⟩
abbrev S32768x4096 : Shape := ⟨2, ![32768, 4096]⟩
abbrev S256x64 : Shape := ⟨2, ![256, 64]⟩
abbrev S256x4096 : Shape := ⟨2, ![256, 4096]⟩
abbrev S256 : Shape := ⟨1, ![256]⟩
abbrev S256x1 : Shape := ⟨2, ![256, 1]⟩
abbrev S16x2048x4096 : Shape := ⟨3, ![16, 2048, 4096]⟩

abbrev nBuf : Space → Nat
  | .hbm => 20
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S4096x64, .f32⟩
  | .hbm, ⟨2, _⟩ => ⟨S32768x64, .f32⟩
  | .hbm, ⟨3, _⟩ => ⟨S4096x64, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x64, .f32⟩
  | .hbm, ⟨12, _⟩ => ⟨S4096x64, .f32⟩
  | .hbm, ⟨13, _⟩ => ⟨S64x4096, .f32⟩
  | .hbm, ⟨14, _⟩ => ⟨S64x4096, .bf16⟩
  | .hbm, ⟨15, _⟩ => ⟨S4096x64, .bf16⟩
  | .hbm, ⟨16, _⟩ => ⟨S32768x4096, .f32⟩
  | .hbm, ⟨17, _⟩ => ⟨S32768x64, .f32⟩
  | .hbm, ⟨18, _⟩ => ⟨S16x2048x4096, .f32⟩
  | .hbm, ⟨19, _⟩ => ⟨S16x2048x64, .f32⟩
  | .local _ .vmem, ⟨0, _⟩ => ⟨S256x64, .f32⟩
  | .local _ .vmem, ⟨1, _⟩ => ⟨S256x64, .f32⟩
  | .local _ .vmem, ⟨2, _⟩ => ⟨S64x4096, .bf16⟩
  | .local _ .vmem, ⟨3, _⟩ => ⟨S4096x64, .bf16⟩
  | .local _ .vmem, ⟨4, _⟩ => ⟨S256x4096, .f32⟩
  | .local _ .vmem, ⟨5, _⟩ => ⟨S256x4096, .f32⟩
  | .local _ .vmem, ⟨6, _⟩ => ⟨S256x64, .f32⟩
  | .local _ .vmem, ⟨7, _⟩ => ⟨S256x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16x2048x64_S32768x64 : S16x2048x64.ShapeCasts S32768x64
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  transposes_S4096x64_S64x4096_1_0 : S4096x64.Transposes [1, 0] S64x4096
  bitsLt_bf16_f32 : FTy.bits .bf16 < FTy.bits .f32
  inb_S256x64_S256x64_0_0 : ∀ a, (![0, 0] : Fin 2 → Nat) a + S256x64.size a ≤ S256x64.size a
  h_S256x64 : 0 < S256x64.numel
  shapeCasts_S256x64_S256x64 : S256x64.ShapeCasts S256x64
  reduces_S256x64_S256 : S256x64.Reduces [1] S256
  shapeCasts_S256_S256x1 : S256.ShapeCasts S256x1
  broadcasts_S256x1_S256x64 : S256x1.Broadcasts S256x64
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  reduces_S256x4096_S256 : S256x4096.Reduces [1] S256
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  shapeCasts_S32768x4096_S16x2048x4096 : S32768x4096.ShapeCasts S16x2048x4096
  shapeCasts_S32768x64_S16x2048x64 : S32768x64.ShapeCasts S16x2048x64
  dot_S256x64_S64x4096_S256x4096_1_0_0_1_n_n_wf : DotDims.WF S256x64 S64x4096 S256x4096 [1] [0] [0] [1] [] []
  dot_S256x4096_S4096x64_S256x64_1_0_0_1_n_n_wf : DotDims.WF S256x4096 S4096x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S32768x64.size a
  hwx0_0 : ∀ i : grid0.Coords, EltTy.bits .f32 = 32 ∨ (Rect.block (s := S32768x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .bf16 = 32 ∨ (Rect.block (s := S64x4096) S64x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .bf16 = 32 ∨ (Rect.block (s := S4096x64) S4096x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S32768x4096.size a
  hwx0_3 : ∀ i : grid0.Coords, EltTy.bits .f32 = 32 ∨ (Rect.block (s := S32768x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S32768x64.size a
  hwx0_4 : ∀ i : grid0.Coords, EltTy.bits .f32 = 32 ∨ (Rect.block (s := S32768x64) S256x64.size (cc0_transform_4 i) (hinb0_4 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf

abbrev win0_0 : Pipeline.Window sig grid0 :=
  Pipeline.Window.ofSpec (Memref.whole main_v0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S256x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S256x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S4096x64 : Shape := ⟨2, ![4096, 64]⟩
abbrev S_ : Shape := ⟨0, ![]⟩
abbrev S16x2048 : Shape := ⟨2, ![16, 2048]⟩
abbrev S16x2048x1 : Shape := ⟨3, ![16, 2048, 1]⟩
abbrev S4096 : Shape := ⟨1, ![4096]⟩
abbrev S4096x1 : Shape := ⟨2, ![4096, 1]⟩
abbrev S16x2048x4096 : Shape := ⟨3, ![16, 2048, 4096]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S4096x64, .f32⟩
  | .hbm, ⟨2, _⟩ => ⟨S16x2048x64, .f32⟩
  | .hbm, ⟨3, _⟩ => ⟨S_, .f32⟩
  | .hbm, ⟨4, _⟩ => ⟨S16x2048, .f32⟩
  | .hbm, ⟨5, _⟩ => ⟨S16x2048x1, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S16x2048x64, .f32⟩
  | .hbm, ⟨11, _⟩ => ⟨S16x2048x64, .f32⟩
  | .hbm, ⟨12, _⟩ => ⟨S4096x64, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x64, .f32⟩
  | .hbm, ⟨21, _⟩ => ⟨S4096x64, .f32⟩
  | .hbm, ⟨22, _⟩ => ⟨S16x2048x4096, .f32⟩
  | .hbm, ⟨23, _⟩ => ⟨S_, .f32⟩
  | .hbm, ⟨24, _⟩ => ⟨S16x2048x4096, .f32⟩
  | .hbm, ⟨25, _⟩ => ⟨S16x2048x4096, .f32⟩
  | .hbm, ⟨26, _⟩ => ⟨S_, .f32⟩
  | .hbm, ⟨27, _⟩ => ⟨S16x2048, .f32⟩
  | .hbm, ⟨28, _⟩ => ⟨S_, .f32⟩
  | .hbm, ⟨29, _⟩ => ⟨S16x2048, .f32⟩
  | .hbm, ⟨30, _⟩ => ⟨S16x2048, .f32⟩
  | .hbm, ⟨31, _⟩ => ⟨S16x2048x1, .f32⟩
  | .hbm, ⟨32, _⟩ => ⟨S16x2048x4096, .f32⟩
  | .hbm, ⟨33, _⟩ => ⟨S16x2048x4096, .f32⟩
  | .hbm, ⟨34, _⟩ => ⟨S16x2048x4096, .f32⟩
  | .hbm, ⟨35, _⟩ => ⟨S_, .f32⟩
  | .hbm, ⟨36, _⟩ => ⟨S16x2048, .f32⟩
  | .hbm, ⟨37, _⟩ => ⟨S16x2048x1, .f32⟩
  | .hbm, ⟨38, _⟩ => ⟨S16x2048x4096, .f32⟩
  | .hbm, ⟨39, _⟩ => ⟨S16x2048x4096, .f32⟩
  | .hbm, ⟨40, _⟩ => ⟨S_, .f32⟩
  | .hbm, ⟨41, _⟩ => ⟨S16x2048x4096, .f32⟩
  | .hbm, ⟨42, _⟩ => ⟨S16x2048x4096, .f32⟩
  | .hbm, ⟨43, _⟩ => ⟨S_, .f32⟩
  | .hbm, ⟨44, _⟩ => ⟨S16x2048x4096, .f32⟩
  | .hbm, ⟨45, _⟩ => ⟨S16x2048x4096, .f32⟩
  | .hbm, ⟨46, _⟩ => ⟨S16x2048x4096, .f32⟩
  | .hbm, ⟨47, _⟩ => ⟨S16x2048x4096, .f32⟩
  | .hbm, ⟨48, _⟩ => ⟨S_, .f32⟩
  | .hbm, ⟨49, _⟩ => ⟨S16x2048x4096, .f32⟩
  | .hbm, ⟨50, _⟩ => ⟨S16x2048x4096, .f32⟩
  | .hbm, ⟨51, _⟩ => ⟨S16x2048x4096, .f32⟩
  | .hbm, ⟨52, _⟩ => ⟨S16x2048x4096, .f32⟩
  | .hbm, ⟨53, _⟩ => ⟨S_, .f32⟩
  | .hbm, ⟨54, _⟩ => ⟨S16x2048, .f32⟩
  | .hbm, ⟨55, _⟩ => ⟨S16x2048x1, .f32⟩
  | .hbm, ⟨56, _⟩ => ⟨S_, .f32⟩
  | .hbm, ⟨57, _⟩ => ⟨S16x2048x1, .f32⟩
  | .hbm, ⟨58, _⟩ => ⟨S16x2048x1, .f32⟩
  | .hbm, ⟨59, _⟩ => ⟨S16x2048x4096, .f32⟩
  | .hbm, ⟨60, _⟩ => ⟨S16x2048x4096, .f32⟩
  | .hbm, ⟨61, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_v30 : Ref sig .tc := ⟨.hbm, 41, rfl⟩
abbrev main_v31 : Ref sig .tc := ⟨.hbm, 42, rfl⟩
abbrev main_call0_cst : Ref sig .tc := ⟨.hbm, 43, rfl⟩
abbrev main_call0_v0 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]

class Facts₀ : Prop where
  reducesTo_S16x2048x64_S16x2048_d2 : S16x2048x64.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x64_0_1_2 : S16x2048x1.BroadcastsInDim S16x2048x64 (![0, 1, 2] : Fin 3 → Fin S16x2048x64.rank)
  reducesTo_S4096x64_S4096_d1 : S4096x64.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x64_0_1 : S4096x1.BroadcastsInDim S4096x64 (![0, 1] : Fin 2 → Fin S4096x64.rank)
  bcast_S_S16x2048x4096 : S_.BroadcastsInDim S16x2048x4096 (![] : Fin 0 → Fin S16x2048x4096.rank)
  reducesTo_S16x2048x4096_S16x2048_d2 : S16x2048x4096.ReducesTo [2] S16x2048
  bcast_S_S16x2048 : S_.BroadcastsInDim S16x2048 (![] : Fin 0 → Fin S16x2048.rank)
  bcast_S16x2048x1_S16x2048x4096_0_1_2 : S16x2048x1.BroadcastsInDim S16x2048x4096 (![0, 1, 2] : Fin 3 → Fin S16x2048x4096.rank)
  dot_S16x2048x64_S4096x64_S16x2048x4096_2_1_01_0_n_n_wf : DotDims.WF S16x2048x64 S4096x64 S16x2048x4096 [2] [1] [0, 1] [0] [] []
  dot_S16x2048x4096_S4096x64_S16x2048x64_2_0_01_1_n_n_wf : DotDims.WF S16x2048x4096 S4096x64 S16x2048x64 [2] [0] [0, 1] [1] [] []

variable [Facts₀]

def dot_S16x2048x64_S4096x64_S16x2048x4096_2_1_01_0_n_n : DotDims S16x2048x64 S4096x64 S16x2048x4096 where
  lhsContracting := [2]
  rhsContracting := [1]
  lhsNonContracting := [0, 1]
  rhsNonContracting := [0]
  lhsBatch := []
  rhsBatch := []
  wf := dot_S16x2048x64_S4096x64_S16x2048x4096_2_1_01_0_n_n_wf
def dot_S16x2048x4096_S4096x64_S16x2048x64_2_0_01_1_n_n : DotDims S16x2048x4096 S4096x64 S16x2048x64 where
  lhsContracting := [2]
  rhsContracting := [0]
  lhsNonContracting := [0, 1]
  rhsNonContracting := [1]
  lhsBatch := []
  rhsBatch := []
  wf := dot_S16x2048x4096_S4096x64_S16x2048x64_2_0_01_1_n_n_wf

class Facts : Prop extends Facts₀ where

variable [Facts]
-- ==== Proof.Addressing.lean ====
/-
  Cosine-similarity addressing of a memory bank, one query row at a time, on the extended reals.

  A query row `x ∈ ℝ⁶⁴` and a bank of 4096 memory rows `m_j ∈ ℝ⁶⁴`. Every row is scaled to unit length
  (`v / max(‖v‖₂, ε)`); the logits are the inner products of the scaled query with the scaled memory rows,
  multiplied by 2 (a temperature of one half); the weights are the softmax of the logits taken with the row maximum
  subtracted, then sparsified entry by entry (`max(w − λ, 0) · w / (|w − λ| + ε)`) and rescaled by the sum of
  their absolute values (`W / max(‖W‖₁, ε)`); the read-out is the weighted sum of the (unscaled) memory rows.

  Everything is written with the extended reals' own operations, the float literals kept as the words they were
  printed with: the same word on two sides of an equation is never evaluated. The one place where two different
  words meet is the temperature: dividing by the word of one half is multiplying by the word of two, on every
  extended real (`div_half`).
-/
import Idealize.ShloMosaic.PureOps.Ideal
import Idealize.ShloMosaic.PureOps.Ideal.Laws
import Idealize.ShloMosaic.Lib.ValueIdx

noncomputable section

namespace Addressing

open Idealize.ShloMosaic

/-- The floor `ε` under every norm (the f32 word nearest 1e-12). -/
abbrev epsW : EReal := Ideal.ofBits .f32 0x2B8CBCCC#32
/-- The shrinkage threshold `λ` (the f32 word nearest 0.0025). -/
abbrev thrW : EReal := Ideal.ofBits .f32 0x3B23D70A#32
/-- The inverse temperature, the word of 2. -/
abbrev twoW : EReal := Ideal.ofBits .f32 0x40000000#32
/-- The zero word. -/
abbrev zeroW : EReal := Ideal.ofBits .f32 0x00000000#32

/-- Entry `d` of `v / max(‖v‖₂, ε)`. -/
def unitVec {n : ℕ} (v : Fin n → EReal) (d : Fin n) : EReal :=
  Ideal.div (v d) (max (Ideal.sqrt (∑ k, v k * v k)) epsW)

/-- The scaled logit of a (scaled) query `u` against row `j` of a (scaled) bank `mn`. -/
def logit {n M : ℕ} (u : Fin n → EReal) (mn : Fin M → Fin n → EReal) (j : Fin M) : EReal :=
  (∑ d, u d * mn j d) * twoW

/-- The largest entry of a row, as the fold of `max` from `-∞`. -/
def rowMax {M : ℕ} (L : Fin M → EReal) : EReal := (Finset.univ : Finset (Fin M)).fold max ⊥ L

/-- The exponential of an entry less the row maximum. -/
def expShift {M : ℕ} (L : Fin M → EReal) (j : Fin M) : EReal := Ideal.exp (L j - rowMax L)

/-- The softmax of a row. -/
def softmax {M : ℕ} (L : Fin M → EReal) (j : Fin M) : EReal :=
  Ideal.div (expShift L j) (∑ k, expShift L k)

/-- The sparsifying map `w ↦ max(w − λ, 0) · w / (|w − λ| + ε)`. -/
def shrink (w : EReal) : EReal :=
  Ideal.div (max (w - thrW) zeroW * w) (max (w - thrW) (-(w - thrW)) + epsW)

/-- A row divided by `max(‖W‖₁, ε)`. -/
def renorm {M : ℕ} (W : Fin M → EReal) (j : Fin M) : EReal :=
  Ideal.div (W j) (max (∑ k, max (W k) (-(W k))) epsW)

/-- The addressing weights of a row of logits. -/
def weightsOf {M : ℕ} (L : Fin M → EReal) (j : Fin M) : EReal :=
  renorm (fun k => shrink (softmax L k)) j

/-- The addressing weights of a query row `x` against the bank `mem`. -/
def weights {n M : ℕ} (x : Fin n → EReal) (mem : Fin M → Fin n → EReal) (j : Fin M) : EReal :=
  weightsOf (logit (unitVec x) (fun j => unitVec (mem j))) j

/-- The read-out: the weighted sum of the memory rows, entry `d`. -/
def readout {n M : ℕ} (W : Fin M → EReal) (mem : Fin M → Fin n → EReal) (d : Fin n) : EReal :=
  ∑ j, W j * mem j d

/-- The word of one half denotes 1/2. -/
theorem ofBits_half : Ideal.ofBits .f32 0x3F000000#32 = ((1 / 2 : ℝ) : EReal) := by
  simp [Ideal.ofBits, Ideal.ieee, -EReal.coe_mul]; norm_num

/-- The word of two denotes 2. -/
theorem ofBits_two : Ideal.ofBits .f32 0x40000000#32 = ((2 : ℝ) : EReal) := by
  simp [Ideal.ofBits, Ideal.ieee, -EReal.coe_mul]; norm_num

/-- Dividing by one half is multiplying by two, on every extended real (the infinities included: the divisor is a
    nonzero real, so the quotient is the product with its inverse). -/
theorem div_half (x : EReal) : Ideal.div x (Ideal.ofBits .f32 0x3F000000#32) = x * twoW := by
  show _ = x * Ideal.ofBits .f32 0x40000000#32
  rw [ofBits_half, Ideal.div_coe (by norm_num : (1 / 2 : ℝ) ≠ 0), ofBits_two]
  norm_num

/-- The zero word denotes 0. -/
theorem zeroW_eq : zeroW = 0 := Ideal.ofBits_zero_f32

/-! ## The two results as whole arrays -/

open Idealize.ShloMosaic.ValueIdx in
/-- THE WEIGHTS ARRAY: at `(b, s, j)` the weight of memory slot `j` for the query row `(b, s)`. -/
def weightArr (x : (⟨3, ![16, 2048, 64]⟩ : Shape).Idx → EReal) (mem : (⟨2, ![4096, 64]⟩ : Shape).Idx → EReal) :
    (⟨3, ![16, 2048, 4096]⟩ : Shape).Idx → EReal := fun i =>
  weights (fun k => x (ix3 (⟨(i 0).val, (i 0).isLt⟩ : Fin 16) (⟨(i 1).val, (i 1).isLt⟩ : Fin 2048) k))
    (fun j k => mem (ix2 j k)) (⟨(i 2).val, (i 2).isLt⟩ : Fin 4096)

open Idealize.ShloMosaic.ValueIdx in
/-- THE READ-OUT ARRAY: at `(b, s, d)` entry `d` of the weighted sum of the memory rows for the query row `(b, s)`. -/
def readArr (x : (⟨3, ![16, 2048, 64]⟩ : Shape).Idx → EReal) (mem : (⟨2, ![4096, 64]⟩ : Shape).Idx → EReal) :
    (⟨3, ![16, 2048, 64]⟩ : Shape).Idx → EReal := fun i =>
  readout (weights (fun k => x (ix3 (⟨(i 0).val, (i 0).isLt⟩ : Fin 16) (⟨(i 1).val, (i 1).isLt⟩ : Fin 2048) k))
      (fun j k => mem (ix2 j k)))
    (fun j k => mem (ix2 j k)) (⟨(i 2).val, (i 2).isLt⟩ : Fin 64)

end Addressing

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«108640_j28741921145271_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.Tile.lean ====
/-
  One tile of 256 query rows, entry by entry.

  The tile body scales its 256 rows of 64 entries to unit length, multiplies them by the 64 × 4096 matrix of scaled
  memory rows (transposed), doubles the products, takes the softmax of every row of 4096 logits, sparsifies and
  rescales it, stores the 256 × 4096 weights, and multiplies them by the 4096 × 64 bank. This module cuts the body's
  one long value into its stages — each stage a few vector operations — and reads every stage at an entry `(p, q)`
  as the row-level function of `Addressing` applied to row `p` of the stage's operand. The stages are the body's
  own text, so the body's value is their composition by unfolding.
-/
import proofs.«108640_j28741921145271_1_alg».proof.Proof.Gen.KernelIdeal.Skeleton
import proofs.«108640_j28741921145271_1_alg».proof.Proof.Addressing
import proofs.«108640_j28741921145271_1_alg».proof.Proof.LibRowOps
import proofs.«108640_j28741921145271_1_alg».proof.Proof.LibDotRecord
import Idealize.ShloMosaic.Lib.ValueIdx
import Idealize.ShloMosaic.Lib.Pipeline.Value

noncomputable section

namespace Addressing.Tile

open Cert.KernelIdeal Cert.KernelIdeal.Gen Idealize.ShloMosaic Idealize.ShloMosaic.ValueIdx

/-! ## The stages -/

/-- The rows' sums of squares. -/
def sumSq (v : FVec Ideal S256x64 .f32) : FVec Ideal S256 .f32 :=
  multiReduction .add [1] S256 (mulf v v) 0x00000000#32 reduces_S256x64_S256 (.inl rfl) rfl

/-- The rows' lengths floored at `ε`, as a column. -/
def lenCol (v : FVec Ideal S256x64 .f32) : FVec Ideal S256x1 .f32 :=
  maximumf (sqrt (shapeCast S256x1 (sumSq v) shapeCasts_S256_S256x1)) (broadcast S256x1 (Scalar.ofBits .f32 0x2B8CBCCC#32))

/-- The tile's rows scaled to unit length. -/
def unitRows (v0 : Vec Ideal S256x64 .f32) : FVec Ideal S256x64 .f32 :=
  divf (shapeCast S256x64 v0 shapeCasts_S256x64_S256x64)
    (broadcastTo S256x64 (lenCol (shapeCast S256x64 v0 shapeCasts_S256x64_S256x64)) broadcasts_S256x1_S256x64)

/-- The doubled products of the scaled rows with the scaled, transposed bank. -/
def logitRows (u : FVec Ideal S256x64 .f32) (v11 : Vec Ideal S64x4096 .bf16) : FVec Ideal S256x4096 .f32 :=
  mulf (matmul dot_S256x64_S64x4096_S256x4096_1_0_0_1_n_n none (truncf .bf16 u bitsLt_bf16_f32)
      (shapeCast S64x4096 v11 shapeCasts_S64x4096_S64x4096 : FVec Ideal S64x4096 .bf16) (constant S256x4096 .f32 0x00000000#32))
    (broadcast S256x4096 (Scalar.ofBits .f32 0x40000000#32))

/-- Every row's maximum, repeated along the row. -/
def maxRows (l : FVec Ideal S256x4096 .f32) : FVec Ideal S256x4096 .f32 :=
  broadcastTo S256x4096
    (shapeCast S256x1 (multiReduction .maximumf [1] S256 l 0xFF800000#32 reduces_S256x4096_S256 (.inl rfl) rfl) shapeCasts_S256_S256x1)
    broadcasts_S256x1_S256x4096

/-- The exponentials of the entries less their row's maximum. -/
def expRows (l : FVec Ideal S256x4096 .f32) : FVec Ideal S256x4096 .f32 := exp (subf l (maxRows l))

/-- Every row's sum, repeated along the row. -/
def sumRows (e : FVec Ideal S256x4096 .f32) : FVec Ideal S256x4096 .f32 :=
  broadcastTo S256x4096
    (shapeCast S256x1 (multiReduction .add [1] S256 e 0x00000000#32 reduces_S256x4096_S256 (.inl rfl) rfl) shapeCasts_S256_S256x1)
    broadcasts_S256x1_S256x4096

/-- The softmax of every row. -/
def softRows (l : FVec Ideal S256x4096 .f32) : FVec Ideal S256x4096 .f32 := divf (expRows l) (sumRows (expRows l))

/-- The entries less the threshold. -/
def lessThr (w : FVec Ideal S256x4096 .f32) : FVec Ideal S256x4096 .f32 :=
  subf w (broadcast S256x4096 (Scalar.ofBits .f32 0x3B23D70A#32))

/-- The sparsified entries. -/
def shrinkRows (w : FVec Ideal S256x4096 .f32) : FVec Ideal S256x4096 .f32 :=
  divf (mulf (maximumf (lessThr w) (broadcast S256x4096 (Scalar.ofBits .f32 0x00000000#32))) w)
    (addf (absf (lessThr w)) (broadcast S256x4096 (Scalar.ofBits .f32 0x2B8CBCCC#32)))

/-- Every row's sum of absolute values floored at `ε`, repeated along the row. -/
def l1Rows (s : FVec Ideal S256x4096 .f32) : FVec Ideal S256x4096 .f32 :=
  broadcastTo S256x4096
    (maximumf (shapeCast S256x1 (multiReduction .add [1] S256 (absf s) 0x00000000#32 reduces_S256x4096_S256 (.inl rfl) rfl) shapeCasts_S256_S256x1)
      (broadcast S256x1 (Scalar.ofBits .f32 0x2B8CBCCC#32)))
    broadcasts_S256x1_S256x4096

/-- The rows rescaled by their floored 1-norms. -/
def renormRows (s : FVec Ideal S256x4096 .f32) : FVec Ideal S256x4096 .f32 := divf s (l1Rows s)

/-- The body's stored weights are the composition of the stages: the body's own text, regrouped. -/
theorem weights_stages (v0 : Vec Ideal S256x64 .f32) (v11 : Vec Ideal S64x4096 .bf16) :
    k0_pay2 (F := Ideal) v0 v11 = renormRows (shrinkRows (softRows (logitRows (unitRows v0) v11))) := rfl

/-! ## The stages at an entry -/

theorem sumSq_apply (v : FVec Ideal S256x64 .f32) (p : Fin 256) : sumSq v (ix1 p) = ∑ k : Fin 64, v (ix2 p k) * v (ix2 p k) :=
  Gcn.Lib.rowSum_apply (mulf v v) reduces_S256x64_S256 (.inl rfl) rfl p

theorem lenCol_apply (v : FVec Ideal S256x64 .f32) (p : Fin 256) (u : Fin 1) :
    lenCol v (ix2 p u) = max (Ideal.sqrt (∑ k : Fin 64, v (ix2 p k) * v (ix2 p k))) epsW := by
  show max (Ideal.sqrt (shapeCast S256x1 (sumSq v) shapeCasts_S256_S256x1 (ix2 p u))) epsW = _
  rw [Gcn.Lib.shapeCast_a_a1_apply, sumSq_apply]

/-- Entry `(p, d)` of the scaled rows is entry `d` of row `p` scaled to unit length. -/
theorem unitRows_apply (v0 : Vec Ideal S256x64 .f32) (p : Fin 256) (d : Fin 64) :
    unitRows v0 (ix2 p d) = unitVec (fun k => v0 (ix2 p k)) d := by
  have hx : shapeCast S256x64 v0 shapeCasts_S256x64_S256x64 = v0 := shapeCast_self v0 _
  unfold unitRows
  rw [hx]
  show Ideal.div (v0 (ix2 p d)) (broadcastTo S256x64 (lenCol v0) broadcasts_S256x1_S256x64 (ix2 p d)) = _
  rw [Gcn.Lib.broadcastTo_a1_ab_apply, lenCol_apply]
  rfl

/-- Entry `(p, j)` of the doubled products is the scaled logit of row `p` against column `j` of the bank. -/
theorem logitRows_apply (u : FVec Ideal S256x64 .f32) (v11 : Vec Ideal S64x4096 .bf16) (p : Fin 256) (j : Fin 4096) :
    logitRows u v11 (ix2 p j) = logit (fun d => u (ix2 p d)) (fun j d => v11 (ix2 d j)) j := by
  have hx : (shapeCast S64x4096 v11 shapeCasts_S64x4096_S64x4096 : FVec Ideal S64x4096 .bf16) = v11 := shapeCast_self v11 _
  unfold logitRows
  rw [hx]
  show matmul dot_S256x64_S64x4096_S256x4096_1_0_0_1_n_n none (truncf .bf16 u bitsLt_bf16_f32) v11
      (constant S256x4096 .f32 0x00000000#32) (ix2 p j) * twoW = _
  refine (congrArg (· * twoW) (DotRecord.matmul_zero_apply dot_S256x64_S64x4096_S256x4096_1_0_0_1_n_n rfl rfl rfl rfl rfl rfl
    (truncf .bf16 u bitsLt_bf16_f32) v11 none p j)).trans ?_
  rfl

theorem maxRows_apply (l : FVec Ideal S256x4096 .f32) (p : Fin 256) (q : Fin 4096) :
    maxRows l (ix2 p q) = rowMax (fun k => l (ix2 p k)) := by
  unfold maxRows
  rw [Gcn.Lib.broadcastTo_a1_ab_apply, Gcn.Lib.shapeCast_a_a1_apply]
  exact Gcn.Lib.rowMax_apply l reduces_S256x4096_S256 (.inl rfl) rfl p

theorem expRows_apply (l : FVec Ideal S256x4096 .f32) (p : Fin 256) (q : Fin 4096) :
    expRows l (ix2 p q) = expShift (fun k => l (ix2 p k)) q := by
  show Ideal.exp (l (ix2 p q) - maxRows l (ix2 p q)) = _
  rw [maxRows_apply]
  rfl

theorem sumRows_apply (e : FVec Ideal S256x4096 .f32) (p : Fin 256) (q : Fin 4096) :
    sumRows e (ix2 p q) = ∑ k : Fin 4096, e (ix2 p k) := by
  unfold sumRows
  rw [Gcn.Lib.broadcastTo_a1_ab_apply, Gcn.Lib.shapeCast_a_a1_apply]
  exact Gcn.Lib.rowSum_apply e reduces_S256x4096_S256 (.inl rfl) rfl p

/-- Entry `(p, q)` of the softmax stage is the softmax of row `p`, entry `q`. -/
theorem softRows_apply (l : FVec Ideal S256x4096 .f32) (p : Fin 256) (q : Fin 4096) :
    softRows l (ix2 p q) = softmax (fun k => l (ix2 p k)) q := by
  show Ideal.div (expRows l (ix2 p q)) (sumRows (expRows l) (ix2 p q)) = _
  rw [sumRows_apply, expRows_apply]
  unfold softmax
  exact congrArg _ (Finset.sum_congr rfl fun k _ => expRows_apply l p k)

/-- Entry `(p, q)` of the sparsified stage is the sparsifying map of the operand's entry. -/
theorem shrinkRows_apply (w : FVec Ideal S256x4096 .f32) (i : S256x4096.Idx) : shrinkRows w i = shrink (w i) := rfl

theorem l1Rows_apply (s : FVec Ideal S256x4096 .f32) (p : Fin 256) (q : Fin 4096) :
    l1Rows s (ix2 p q) = max (∑ k : Fin 4096, max (s (ix2 p k)) (-(s (ix2 p k)))) epsW := by
  unfold l1Rows
  rw [Gcn.Lib.broadcastTo_a1_ab_apply]
  show max (shapeCast S256x1 (multiReduction .add [1] S256 (absf s) 0x00000000#32 reduces_S256x4096_S256 (.inl rfl) rfl)
      shapeCasts_S256_S256x1 (ix2 p (0 : Fin 1))) epsW = _
  rw [Gcn.Lib.shapeCast_a_a1_apply]
  exact congrArg (max · epsW) (Gcn.Lib.rowSum_apply (absf s) reduces_S256x4096_S256 (.inl rfl) rfl p)

/-- Entry `(p, q)` of the rescaled stage is row `p` rescaled, entry `q`. -/
theorem renormRows_apply (s : FVec Ideal S256x4096 .f32) (p : Fin 256) (q : Fin 4096) :
    renormRows s (ix2 p q) = renorm (fun k => s (ix2 p k)) q := by
  show Ideal.div (s (ix2 p q)) (l1Rows s (ix2 p q)) = _
  rw [l1Rows_apply]
  rfl

/-! ## The body's two stored values at an entry -/

/-- THE WEIGHTS of a tile at `(p, q)`: the addressing weights of the tile's row `p`, as the logits' function of the
    scaled row and the bank's columns the tile was handed. -/
theorem weights_apply (v0 : Vec Ideal S256x64 .f32) (v11 : Vec Ideal S64x4096 .bf16) (p : Fin 256) (q : Fin 4096) :
    k0_pay2 (F := Ideal) v0 v11 (ix2 p q)
      = weightsOf (logit (unitVec fun k => v0 (ix2 p k)) (fun j d => v11 (ix2 d j))) q := by
  rw [weights_stages, renormRows_apply]
  unfold weightsOf
  refine congrArg (fun W => renorm W q) (funext fun k => ?_)
  rw [shrinkRows_apply, softRows_apply]
  refine congrArg (fun L => shrink (softmax L k)) (funext fun j => ?_)
  rw [logitRows_apply]
  exact congrArg (fun u => logit u (fun j d => v11 (ix2 d j)) j) (funext fun d => unitRows_apply v0 p d)

/-- THE READ-OUT of a tile at `(p, d)`: the weighted sum of the bank's rows. -/
theorem readout_apply (v40 : FVec Ideal S256x4096 .f32) (v43 : Vec Ideal S4096x64 .bf16) (p : Fin 256) (d : Fin 64) :
    k0_pay1 (F := Ideal) v40 v43 (ix2 p d) = readout (fun j => v40 (ix2 p j)) (fun j d => v43 (ix2 j d)) d := by
  have hx : shapeCast S4096x64 v43 shapeCasts_S4096x64_S4096x64 = v43 := shapeCast_self v43 _
  unfold k0_pay1
  rw [hx]
  exact DotRecord.matmul_zero_apply dot_S256x4096_S4096x64_S256x64_1_0_0_1_n_n rfl rfl rfl rfl rfl rfl
    (truncf .bf16 v40 bitsLt_bf16_f32) v43 none p d

end Addressing.Tile

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.Region.lean ====
/-
  The region: what the 128 tiles leave in the two flat result arrays.

  Before the region the host lays the queries out as 32768 rows of 64 entries (row `b · 2048 + s` is the query row
  `(b, s)`), scales the memory rows to unit length and transposes them, and hands the bank over unscaled as well.
  Grid point `t` is given rows `256 t … 256 t + 255` of the flat queries and the whole of both bank matrices, and
  writes back rows `256 t … 256 t + 255` of the flat weights and of the flat read-out. So every row of either flat
  result is written by exactly the point `row / 256`, and holds the row-level function of that flat query row.
-/
import proofs.«108640_j28741921145271_1_alg».proof.Proof.Gen.KernelIdeal.Frame
import proofs.«108640_j28741921145271_1_alg».proof.Proof.Tile
import proofs.«108640_j28741921145271_1_alg».proof.Proof.LibHostRead
import Idealize.ShloMosaic.Lib.StableHlo.Run
import Idealize.ShloMosaic.Lib.Pipeline.Value
import Idealize.ShloMosaic.Lib.Tactic

set_option maxRecDepth 16384

noncomputable section

namespace Addressing.Region

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The host's preparation of the bank -/

/-- The memory rows' sums of squares. -/
def sqSums (mem : FVec Ideal S4096x64 .f32) : FVec Ideal S4096 .f32 :=
  Host.reduceAdd (mulf mem mem) (constant S_ .f32 0x00000000#32) reducesTo_S4096x64_S4096_d1 h_S_

/-- The memory rows' lengths floored at `ε`, as a column. -/
def lens (mem : FVec Ideal S4096x64 .f32) : FVec Ideal S4096x1 .f32 :=
  maximumf (Host.sqrt (broadcastInDim S4096x1 ![0] bcast_S4096_S4096x1_0 (sqSums mem)))
    (broadcastInDim S4096x1 ![] bcast_S_S4096x1 (constant S_ .f32 0x2B8CBCCC#32))

/-- The bank with every row scaled to unit length, transposed to `[64, 4096]`. -/
def unitBankT (mem : FVec Ideal S4096x64 .f32) : FVec Ideal S64x4096 .bf16 :=
  truncf .bf16 (transpose S64x4096 [1, 0]
    (Host.divf mem (broadcastInDim S4096x64 ![0, 1] bcast_S4096x1_S4096x64_0_1 (lens mem)))
    transposes_S4096x64_S64x4096_1_0) bitsLt_bf16_f32

theorem lens_apply (mem : FVec Ideal S4096x64 .f32) (j : Fin 4096) (u : Fin 1) :
    lens mem (ix2 j u) = max (Ideal.sqrt (∑ k : Fin 64, mem (ix2 j k) * mem (ix2 j k))) epsW := by
  show max (Ideal.sqrt (broadcastInDim S4096x1 ![0] bcast_S4096_S4096x1_0 (sqSums mem) (ix2 j u)))
    (broadcastInDim S4096x1 ![] bcast_S_S4096x1 (constant (F := Ideal) S_ .f32 0x2B8CBCCC#32) (ix2 j u)) = _
  rw [Hmu.Lib.bcast_a_a1_apply, Hmu.Lib.bcast_const_apply]
  unfold sqSums
  rw [Hmu.Lib.hostReduceAdd_ab_axis1_apply]
  rfl

/-- Entry `(d, j)` of the transposed scaled bank is entry `d` of memory row `j` scaled to unit length. -/
theorem unitBankT_apply (mem : FVec Ideal S4096x64 .f32) (d : Fin 64) (j : Fin 4096) :
    unitBankT mem (ix2 d j) = unitVec (fun k => mem (ix2 j k)) d := by
  show transpose S64x4096 [1, 0] (Host.divf mem (broadcastInDim S4096x64 ![0, 1] bcast_S4096x1_S4096x64_0_1 (lens mem)))
    transposes_S4096x64_S64x4096_1_0 (ix2 d j) = _
  rw [transpose_apply [1, 0] _ transposes_S4096x64_S64x4096_1_0 (ix2 d j) (ix2 j d)
    (fun e => match e with | ⟨0, _⟩ => rfl | ⟨1, _⟩ => rfl)]
  show Ideal.div (mem (ix2 j d)) (broadcastInDim S4096x64 ![0, 1] bcast_S4096x1_S4096x64_0_1 (lens mem) (ix2 j d)) = _
  rw [Hmu.Lib.bcast_a1_ab_apply, lens_apply]
  rfl

/-! ## The arrays as the region finds them -/

/-- The flat queries: the argument re-laid as 32768 rows. -/
theorem V_queries (c : Dev nD) :
    (V m c main_v0 : S32768x64.Idx → EReal)
      = shapeCast S32768x64 (m ((c : Thread nD τ).loc main_arg0)) shapeCasts_S16x2048x64_S32768x64 := by
  show StableHlo.after hostOps0 (fun b => m (c, b)) (Proc.devRef .tc main_v0) = _
  after_results
  rfl

/-- The transposed scaled bank. -/
theorem V_bankT (c : Dev nD) :
    (V m c main_v10 : S64x4096.Idx → EReal) = unitBankT (m ((c : Thread nD τ).loc main_arg1)) := by
  show StableHlo.after hostOps0 (fun b => m (c, b)) (Proc.devRef .tc main_v10) = _
  after_results
  rfl

/-- The bank itself. -/
theorem V_bank (c : Dev nD) :
    (V m c main_v11 : S4096x64.Idx → EReal) = m ((c : Thread nD τ).loc main_arg1) := by
  show StableHlo.after hostOps0 (fun b => m (c, b)) (Proc.devRef .tc main_v11) = _
  after_results
  rfl

/-- Flat row `b · 2048 + s` of the queries is the query row `(b, s)`. -/
theorem V_queries_apply (c : Dev nD) (b : Fin 16) (s : Fin 2048) (k : Fin 64) (n : Fin 32768) (hn : n.val = b.val * 2048 + s.val) :
    V m c main_v0 (ix2 n k) = m ((c : Thread nD τ).loc main_arg0) (ix3 b s k) := by
  rw [V_queries]
  refine shapeCast_apply _ shapeCasts_S16x2048x64_S32768x64 (ix2 n k) (ix3 b s k) ?_
  rw [Shape.rowMajor_val_three, Shape.rowMajor_val_two]
  show (b.val * 2048 + s.val) * 64 + k.val = n.val * 64 + k.val
  rw [hn]

/-! ## The blocks a grid point is given -/

theorem hz : (![0, 0] : Fin 2 → Nat) = fun _ => 0 := funext fun a => by fin_cases a <;> rfl

/-- The printed index maps over the grid: the query block and both result blocks of point `t` are the `t`-th, the
    bank matrices are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The flat row that row `p` of point `t`'s blocks is. -/
def rowAt (t : Fin cfg0.N) (p : Fin 256) : Fin 32768 :=
  ⟨t.val * 256 + p.val, by have h := lt_of_lt_of_eq t.isLt N_0; have := p.isLt; omega⟩

theorem queries_blk (c : Dev nD) (t : Fin cfg0.N) (p : Fin 256) (k : Fin 64) :
    iblk m c 0 t (ix2 p k) = V m c main_v0 (ix2 (rowAt t p) k) := by
  obtain ⟨e0, e1, -⟩ := idx_facts t
  have he : ((cfg0.win 0).blk t).view.emb (ix2 p k) = ix2 (rowAt t p) k := by
    funext a; apply Fin.ext
    match a with
    | ⟨0, _⟩ => show win0_0.index t (0 : Fin 2) * 256 + 1 * p.val = t.val * 256 + p.val; rw [e0]; omega
    | ⟨1, _⟩ => show win0_0.index t (1 : Fin 2) * 64 + 1 * k.val = k.val; rw [e1]; omega
  show V m c main_v0 (((cfg0.win 0).blk t).view.emb (ix2 p k)) = _
  rw [he]

theorem bankT_blk (c : Dev nD) (t : Fin cfg0.N) (d : Fin 64) (j : Fin 4096) :
    iblk m c 1 t (ix2 d j) = V m c main_v10 (ix2 d j) := by
  obtain ⟨-, -, e0, e1, -⟩ := idx_facts t
  have he : ((cfg0.win 1).blk t).view.emb (ix2 d j) = ix2 d j := by
    funext a; apply Fin.ext
    match a with
    | ⟨0, _⟩ => show win0_1.index t (0 : Fin 2) * 64 + 1 * d.val = d.val; rw [e0]; omega
    | ⟨1, _⟩ => show win0_1.index t (1 : Fin 2) * 4096 + 1 * j.val = j.val; rw [e1]; omega
  show V m c main_v10 (((cfg0.win 1).blk t).view.emb (ix2 d j)) = _
  rw [he]

theorem bank_blk (c : Dev nD) (t : Fin cfg0.N) (j : Fin 4096) (d : Fin 64) :
    iblk m c 2 t (ix2 j d) = V m c main_v11 (ix2 j d) := by
  obtain ⟨-, -, -, -, e0, e1, -⟩ := idx_facts t
  have he : ((cfg0.win 2).blk t).view.emb (ix2 j d) = ix2 j d := by
    funext a; apply Fin.ext
    match a with
    | ⟨0, _⟩ => show win0_2.index t (0 : Fin 2) * 4096 + 1 * j.val = j.val; rw [e0]; omega
    | ⟨1, _⟩ => show win0_2.index t (1 : Fin 2) * 64 + 1 * d.val = d.val; rw [e1]; omega
  show V m c main_v11 (((cfg0.win 2).blk t).view.emb (ix2 j d)) = _
  rw [he]

/-! ## The flat results -/

/-- The logits of flat query row `n` against the transposed scaled bank `BT`. -/
def flatLogits (X : S32768x64.Idx → EReal) (BT : S64x4096.Idx → EReal) (n : Fin 32768) : Fin 4096 → EReal :=
  logit (unitVec fun k => X (ix2 n k)) (fun j d => BT (ix2 d j))

/-- The flat weights: row `n` holds the addressing weights of flat query row `n`. -/
def flatWeights (X : S32768x64.Idx → EReal) (BT : S64x4096.Idx → EReal) : S32768x4096.Idx → EReal := fun i =>
  weightsOf (flatLogits X BT ⟨(i 0).val, (i 0).isLt⟩) (⟨(i 1).val, (i 1).isLt⟩ : Fin 4096)

/-- The flat read-out: row `n` holds the weighted sum of the bank's rows for flat query row `n`. -/
def flatRead (X : S32768x64.Idx → EReal) (BT : S64x4096.Idx → EReal) (B : S4096x64.Idx → EReal) : S32768x64.Idx → EReal := fun i =>
  readout (weightsOf (flatLogits X BT ⟨(i 0).val, (i 0).isLt⟩)) (fun j d => B (ix2 j d)) (⟨(i 1).val, (i 1).isLt⟩ : Fin 64)

/-- The weights point `t` computes at `(p, q)`: those of flat query row `256 t + p`. -/
theorem tile_weights (c : Dev nD) (t : Fin cfg0.N) (p : Fin 256) (q : Fin 4096) :
    k0_pay2 (F := Ideal) (iblk m c 0 t) (iblk m c 1 t) (ix2 p q)
      = weightsOf (flatLogits (V m c main_v0) (V m c main_v10) (rowAt t p)) q := by
  refine (Tile.weights_apply (iblk m c 0 t) (iblk m c 1 t) p q).trans ?_
  unfold flatLogits
  simp only [queries_blk, bankT_blk]

/-- WHAT POINT `t` WRITES BACK to the flat weights is its block of `flatWeights`. -/
theorem flushed3_eq (c : Dev nD) (t : Fin cfg0.N) :
    (dats m 0 c).flushed 3 t
      = ((cfg0.win 3).blk t).view.read (Elt Ideal) (flatWeights (V m c main_v0) (V m c main_v10)) := by
  show (cfg0.win 3).cut (grid0.coords t) ((dats m 0 c).after 3 t) = _
  rw [after0_3]
  unfold out0_3
  rw [View.canon_unit_zero hz]
  simp only [View.ld_unit_zero (S := S256x64) hz, View.ld_unit_zero (S := S64x4096) hz]
  obtain ⟨-, -, -, -, -, -, e0, e1, -⟩ := idx_facts t
  funext y
  obtain ⟨p, q, rfl⟩ : ∃ (p : Fin 256) (q : Fin 4096), y = ix2 p q := ⟨y 0, y 1, eq_ix2 y⟩
  have he : ((cfg0.win 3).blk t).view.emb (ix2 p q) = ix2 (rowAt t p) q := by
    funext a; apply Fin.ext
    match a with
    | ⟨0, _⟩ => show win0_3.index t (0 : Fin 2) * 256 + 1 * p.val = t.val * 256 + p.val; rw [e0]; omega
    | ⟨1, _⟩ => show win0_3.index t (1 : Fin 2) * 4096 + 1 * q.val = q.val; rw [e1]; omega
  show k0_pay2 (F := Ideal) (iblk m c 0 t) (iblk m c 1 t) (ix2 p q)
    = flatWeights (V m c main_v0) (V m c main_v10) (((cfg0.win 3).blk t).view.emb (ix2 p q))
  rw [he, tile_weights]
  rfl

/-- WHAT POINT `t` WRITES BACK to the flat read-out is its block of `flatRead`. -/
theorem flushed4_eq (c : Dev nD) (t : Fin cfg0.N) :
    (dats m 0 c).flushed 4 t
      = ((cfg0.win 4).blk t).view.read (Elt Ideal) (flatRead (V m c main_v0) (V m c main_v10) (V m c main_v11)) := by
  show (cfg0.win 4).cut (grid0.coords t) ((dats m 0 c).after 4 t) = _
  rw [after0_4]
  unfold out0_4
  rw [View.canon_unit_zero hz]
  simp only [View.ld_unit_zero (S := S256x64) hz, View.ld_unit_zero (S := S64x4096) hz, View.ld_unit_zero (S := S4096x64) hz]
  obtain ⟨-, -, -, -, -, -, -, -, e0, e1⟩ := idx_facts t
  funext y
  obtain ⟨p, d, rfl⟩ : ∃ (p : Fin 256) (d : Fin 64), y = ix2 p d := ⟨y 0, y 1, eq_ix2 y⟩
  have he : ((cfg0.win 4).blk t).view.emb (ix2 p d) = ix2 (rowAt t p) d := by
    funext a; apply Fin.ext
    match a with
    | ⟨0, _⟩ => show win0_4.index t (0 : Fin 2) * 256 + 1 * p.val = t.val * 256 + p.val; rw [e0]; omega
    | ⟨1, _⟩ => show win0_4.index t (1 : Fin 2) * 64 + 1 * d.val = d.val; rw [e1]; omega
  show k0_pay1 (F := Ideal) (k0_pay2 (F := Ideal) (iblk m c 0 t) (iblk m c 1 t)) (iblk m c 2 t) (ix2 p d)
    = flatRead (V m c main_v0) (V m c main_v10) (V m c main_v11) (((cfg0.win 4).blk t).view.emb (ix2 p d))
  rw [he]
  refine (Tile.readout_apply (k0_pay2 (F := Ideal) (iblk m c 0 t) (iblk m c 1 t)) (iblk m c 2 t) p d).trans ?_
  show readout (fun j => k0_pay2 (F := Ideal) (iblk m c 0 t) (iblk m c 1 t) (ix2 p j)) (fun j d => iblk m c 2 t (ix2 j d)) d
    = readout (weightsOf (flatLogits (V m c main_v0) (V m c main_v10) (rowAt t p))) (fun j d => V m c main_v11 (ix2 j d)) d
  simp only [tile_weights, bank_blk]

/-! ## Every row is some point's -/

theorem mem_blk3 (t : Fin cfg0.N) (i : S32768x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v12_0).slice (win0_3.rect t)).set ↔ _
  rw [View.set_slice_whole, Rect.mem_set_unit]
  exact Iff.rfl

theorem mem_blk4 (t : Fin cfg0.N) (i : S32768x64.Idx) :
    i ∈ ((cfg0.win 4).blk t).view.set ↔ ∀ a : Fin 2, win0_4.index t a * S256x64.size a ≤ (i a).val
      ∧ (i a).val < win0_4.index t a * S256x64.size a + S256x64.size a := by
  show i ∈ ((View.whole main_v12_1).slice (win0_4.rect t)).set ↔ _
  rw [View.set_slice_whole, Rect.mem_set_unit]
  exact Iff.rfl

/-- The point whose blocks hold flat row `r`: `r / 256`. -/
theorem point_of_row (r : ℕ) (hr : r < 32768) : ∃ t : Fin cfg0.N, t.val = r / 256 :=
  ⟨⟨r / 256, by rw [show cfg0.N = 128 from N_0]; omega⟩, rfl⟩

theorem cover3 (i : S32768x4096.Idx) :
    ∃ t : Fin cfg0.N, (cfg0.win 3).flush t = true ∧ i ∈ ((cfg0.win 3).blk t).view.set := by
  have hi0 : (i 0).val < 32768 := (i 0).isLt
  have hi1 : (i 1).val < 4096 := (i 1).isLt
  obtain ⟨t, ht⟩ := point_of_row (i 0).val hi0
  obtain ⟨-, -, -, -, -, -, e0, e1, -⟩ := idx_facts t
  refine ⟨t, flush0_3 t, ?_⟩
  rw [mem_blk3]
  intro a
  match a with
  | ⟨0, _⟩ =>
    show win0_3.index t (0 : Fin 2) * 256 ≤ (i 0).val ∧ (i 0).val < win0_3.index t (0 : Fin 2) * 256 + 256
    rw [e0, ht]; omega
  | ⟨1, _⟩ =>
    show win0_3.index t (1 : Fin 2) * 4096 ≤ (i 1).val ∧ (i 1).val < win0_3.index t (1 : Fin 2) * 4096 + 4096
    rw [e1]; omega

theorem cover4 (i : S32768x64.Idx) :
    ∃ t : Fin cfg0.N, (cfg0.win 4).flush t = true ∧ i ∈ ((cfg0.win 4).blk t).view.set := by
  have hi0 : (i 0).val < 32768 := (i 0).isLt
  have hi1 : (i 1).val < 64 := (i 1).isLt
  obtain ⟨t, ht⟩ := point_of_row (i 0).val hi0
  obtain ⟨-, -, -, -, -, -, -, -, e0, e1⟩ := idx_facts t
  refine ⟨t, flush0_4 t, ?_⟩
  rw [mem_blk4]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 64 ≤ (i 1).val ∧ (i 1).val < win0_4.index t (1 : Fin 2) * 64 + 64
    rw [e1]; omega

/-! ## The flat arrays after the region -/

/-- THE FLAT WEIGHTS after the last point. -/
theorem final3 (c : Dev nD) : (dats m 0 c).arrAt 3 cfg0.N = flatWeights (V m c main_v0) (V m c main_v10) :=
  (dats m 0 c).arrAt_eq_of_cover 3 (flatWeights (V m c main_v0) (V m c main_v10)) (fun t _ => flushed3_eq m c t) cover3

/-- THE FLAT READ-OUT after the last point. -/
theorem final4 (c : Dev nD) :
    (dats m 0 c).arrAt 4 cfg0.N = flatRead (V m c main_v0) (V m c main_v10) (V m c main_v11) :=
  (dats m 0 c).arrAt_eq_of_cover 4 (flatRead (V m c main_v0) (V m c main_v10) (V m c main_v11))
    (fun t _ => flushed4_eq m c t) cover4

end Addressing.Region

end
-- ==== Proof.Program.lean ====
/-
  The whole kernel program, run: its two results are the arrays of `Addressing`.

  After the region the host folds the flat weights `[32768, 4096]` back to `[16, 2048, 4096]` and the flat read-out
  `[32768, 64]` back to `[16, 2048, 64]`: entry `(b, s, ·)` of a folded array is entry `(b · 2048 + s, ·)` of the flat one,
  and flat query row `b · 2048 + s` is the query row `(b, s)`, so the folded arrays hold, at `(b, s, ·)`, the row-level
  functions of the query row `(b, s)` and of the bank as launched.
-/
import proofs.«108640_j28741921145271_1_alg».proof.Proof.Region

set_option maxRecDepth 16384

noncomputable section

namespace Addressing.Program

open Cert.KernelIdeal Cert.KernelIdeal.Gen Idealize.ShloMosaic Idealize.ShloMosaic.TcCoe Idealize.SL.Sem
open Idealize.ShloMosaic.ValueIdx Idealize.ShloMosaic.StableHlo Addressing.Region
open Idealize.ShloMosaic.Pipeline (Dat)

variable (m : (ℓ : Loc nD τ sig) → Buf (Elt Ideal) ℓ) (ρ : Dev nD → PrngReg)

/-! ## The folded results -/

/-- The weights result is the flat weights folded back. -/
theorem tail_weights (c : Dev nD) :
    Pipeline.afterTail₀ cfgs (dats m) 0 (V0 m) [hostOps1] c main_v13
      = shapeCast S16x2048x4096 (flatWeights (V m c main_v0) (V m c main_v10)) shapeCasts_S32768x4096_S16x2048x4096 := by
  have hw : Pipeline.withArrays spec0 c (V0 m c) (fun w => (dats m 0 c).arrAt w cfg0.N) (Proc.devRef .tc (Pipeline.arrRef spec0 3))
      = flatWeights (V m c main_v0) (V m c main_v10) :=
    (Pipeline.withArrays_arr spec0 launch0.win.arr_inj c _ _ 3).trans (final3 m c)
  unfold Pipeline.afterTail₀
  show StableHlo.after hostOps1 _ (Proc.devRef .tc main_v13) = _
  after_results
  exact congrArg (fun A => shapeCast S16x2048x4096 A shapeCasts_S32768x4096_S16x2048x4096) hw

/-- The read-out result is the flat read-out folded back. -/
theorem tail_read (c : Dev nD) :
    Pipeline.afterTail₀ cfgs (dats m) 0 (V0 m) [hostOps1] c main_v14
      = shapeCast S16x2048x64 (flatRead (V m c main_v0) (V m c main_v10) (V m c main_v11)) shapeCasts_S32768x64_S16x2048x64 := by
  have hw : Pipeline.withArrays spec0 c (V0 m c) (fun w => (dats m 0 c).arrAt w cfg0.N) (Proc.devRef .tc (Pipeline.arrRef spec0 4))
      = flatRead (V m c main_v0) (V m c main_v10) (V m c main_v11) :=
    (Pipeline.withArrays_arr spec0 launch0.win.arr_inj c _ _ 4).trans (final4 m c)
  unfold Pipeline.afterTail₀
  show StableHlo.after hostOps1 _ (Proc.devRef .tc main_v14) = _
  after_results
  exact congrArg (fun A => shapeCast S16x2048x64 A shapeCasts_S32768x64_S16x2048x64) hw

/-- The flat row of the query row `(b, s)`. -/
def flatRow (b : Fin 16) (s : Fin 2048) : Fin 32768 :=
  ⟨b.val * 2048 + s.val, by have := b.isLt; have := s.isLt; omega⟩

/-- The logits of flat query row `b · 2048 + s` are the logits of the query row `(b, s)` against the bank as launched. -/
theorem flatLogits_eq (c : Dev nD) (b : Fin 16) (s : Fin 2048) :
    flatLogits (V m c main_v0) (V m c main_v10) (flatRow b s)
      = logit (unitVec fun k => m ((c : Thread nD τ).loc main_arg0) (ix3 b s k))
          (fun j => unitVec fun k => m ((c : Thread nD τ).loc main_arg1) (ix2 j k)) := by
  have hq : ∀ k : Fin 64, V m c main_v0 (ix2 (flatRow b s) k) = m ((c : Thread nD τ).loc main_arg0) (ix3 b s k) :=
    fun k => V_queries_apply m c b s k (flatRow b s) rfl
  have hb : ∀ (d : Fin 64) (j : Fin 4096),
      V m c main_v10 (ix2 d j) = unitVec (fun k => m ((c : Thread nD τ).loc main_arg1) (ix2 j k)) d :=
    fun d j => by rw [V_bankT]; exact unitBankT_apply _ d j
  unfold flatLogits
  simp only [hq, hb]

/-- THE WEIGHTS RESULT is the weights array of the arguments. -/
theorem weights_eq (c : Dev nD) :
    shapeCast S16x2048x4096 (flatWeights (V m c main_v0) (V m c main_v10)) shapeCasts_S32768x4096_S16x2048x4096
      = weightArr (m ((c : Thread nD τ).loc main_arg0)) (m ((c : Thread nD τ).loc main_arg1)) := by
  funext i
  obtain ⟨b, s, j, rfl⟩ : ∃ (b : Fin 16) (s : Fin 2048) (j : Fin 4096), i = ix3 b s j := ⟨i 0, i 1, i 2, eq_ix3 i⟩
  rw [shapeCast_apply _ shapeCasts_S32768x4096_S16x2048x4096 (ix3 b s j) (ix2 (flatRow b s) j)
    (by rw [Shape.rowMajor_val_two, Shape.rowMajor_val_three]; rfl)]
  show weightsOf (flatLogits (V m c main_v0) (V m c main_v10) (flatRow b s)) j = _
  rw [flatLogits_eq]
  rfl

/-- THE READ-OUT RESULT is the read-out array of the arguments. -/
theorem read_eq (c : Dev nD) :
    shapeCast S16x2048x64 (flatRead (V m c main_v0) (V m c main_v10) (V m c main_v11)) shapeCasts_S32768x64_S16x2048x64
      = readArr (m ((c : Thread nD τ).loc main_arg0)) (m ((c : Thread nD τ).loc main_arg1)) := by
  funext i
  obtain ⟨b, s, d, rfl⟩ : ∃ (b : Fin 16) (s : Fin 2048) (d : Fin 64), i = ix3 b s d := ⟨i 0, i 1, i 2, eq_ix3 i⟩
  rw [shapeCast_apply _ shapeCasts_S32768x64_S16x2048x64 (ix3 b s d) (ix2 (flatRow b s) d)
    (by rw [Shape.rowMajor_val_two, Shape.rowMajor_val_three]; rfl)]
  show readout (weightsOf (flatLogits (V m c main_v0) (V m c main_v10) (flatRow b s))) (fun j d => V m c main_v11 (ix2 j d)) d = _
  rw [flatLogits_eq, V_bank]
  rfl

/-! ## The run -/

/-- Every weakly fair execution of the kernel's program terminates with the read-out result at `readArr` and the
    weights result at `weightArr` of the arguments as launched, the arguments unchanged. -/
theorem run : θ_run defs (onTc (τ := τ) (main (F := Ideal))) ⟨m, fun _ => 0, ρ⟩ fun r => ∀ c : Dev nD,
      r.2.mem ((c.tc : Thread nD τ).loc main_v14)
          = readArr (m ((c.tc : Thread nD τ).loc main_arg0)) (m ((c.tc : Thread nD τ).loc main_arg1))
      ∧ r.2.mem ((c.tc : Thread nD τ).loc main_v13)
          = weightArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v14 (Pipeline.mem_restRefs_of main_v14 (by decide) (by decide))).trans ((tail_read m c).trans (read_eq m c)),
      ((h c).2 main_v13 (Pipeline.mem_restRefs_of main_v13 (by decide) (by decide))).trans ((tail_weights m c).trans (weights_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Addressing.Program

end
-- ==== Proof.LibReduceLast3.lean ====
/-
  The host's one-axis `reduce` with a `maximum` body along the LAST axis of an `[a, b, c]` array, read at `(p, q)`.

  On the extended reals the reduce is the fold of `max` from its initial value over the `c` entries
  `x (p, q, k)`: the index of the reduced array with the coordinate `k` put back on axis 2 is `(p, q, k)`.
-/
import Idealize.ShloMosaic.PureOps.Ideal.Laws
import Idealize.ShloMosaic.Lib.ValueIdx

namespace LibReduceLast3

open Idealize.ShloMosaic Idealize.ShloMosaic.ValueIdx

variable {a b c : ℕ}

/-- Entry `(p, q)` of the reduced array with the coordinate `k` put back on the last axis is `(p, q, k)`. -/
theorem lift_last (h : Shape.Reduces ⟨3, ![a, b, c]⟩ [2] ⟨2, ![a, b]⟩) (p : Fin a) (q : Fin b) (k : Fin c) :
    h.lift (ix2 p q) k = ix3 p q k := by
  funext d
  apply Fin.ext
  match d with
  | ⟨0, h0⟩ =>
    show h.liftVal (ix2 p q) k.val ⟨0, h0⟩ = p.val
    unfold Shape.Reduces.liftVal
    split
    · next hc => exact absurd hc (show ¬ ((0 : ℕ) = 2) by decide)
    · split
      · rfl
      · next hlt => exact absurd (by decide : (0 : ℕ) < 2) hlt
  | ⟨1, h1⟩ =>
    show h.liftVal (ix2 p q) k.val ⟨1, h1⟩ = q.val
    unfold Shape.Reduces.liftVal
    split
    · next hc => exact absurd hc (show ¬ ((1 : ℕ) = 2) by decide)
    · split
      · rfl
      · next hlt => exact absurd (by decide : (1 : ℕ) < 2) hlt
  | ⟨2, h2⟩ =>
    show h.liftVal (ix2 p q) k.val ⟨2, h2⟩ = k.val
    unfold Shape.Reduces.liftVal
    split
    · rfl
    · next hc => exact absurd rfl hc

/-- The host's `reduce` with a `maximum` body along the last axis, at `(p, q)`: the fold of `max` from the initial
    value over the entries `x (p, q, k)`. -/
theorem hostMaxLast_apply {u : Shape} (x : (⟨3, ![a, b, c]⟩ : Shape).Idx → EReal) (init : u.Idx → EReal)
    (h' : Shape.ReducesTo ⟨3, ![a, b, c]⟩ [2] ⟨2, ![a, b]⟩) (h : Shape.Reduces ⟨3, ![a, b, c]⟩ [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  show (Finset.univ : Finset (Fin c)).fold max (init (Shape.Idx.first hu)) (x ∘ h.lift (ix2 p q)) = _
  exact congrArg (fun f => (Finset.univ : Finset (Fin c)).fold max (init (Shape.Idx.first hu)) f)
    (funext fun k => congrArg x (lift_last h p q k))

end LibReduceLast3
-- ==== Proof.HostRows.lean ====
/-
  The host computation, stage by stage, read at an entry.

  The host program works on the whole `[16, 2048, 64]` array of queries at once: it scales the queries and the
  memory rows to unit length, contracts them over the 64 features, divides by the temperature one half, takes the
  softmax along the 4096 memory slots, sparsifies, rescales by the 1-norm and contracts the weights with the bank
  over the slots. Read at the entry `(b, s, ·)` every stage is the row-level function of `Addressing` applied to
  the query row `(b, s)`: a reduction along the last axis reads the entries `(b, s, k)`, a keepdims broadcast reads
  `(b, s, 0)` and then `(b, s)`. Two laws join the host's spelling to the row-level one: the quotient by one half is
  the product with two, and a maximum taken once more against `-∞` is unchanged.
-/
import proofs.«108640_j28741921145271_1_alg».proof.Proof.Gen.ReferenceIdeal.Read
import proofs.«108640_j28741921145271_1_alg».proof.Proof.Addressing
import proofs.«108640_j28741921145271_1_alg».proof.Proof.LibRowOps
import proofs.«108640_j28741921145271_1_alg».proof.Proof.LibReduceLast3
import Idealize.ShloMosaic.Lib.ValueIdx

noncomputable section

namespace Addressing.Host

open Cert.ReferenceIdeal Cert.ReferenceIdeal.Gen Cert.ReferenceIdeal.Read
open Idealize.ShloMosaic Idealize.ShloMosaic.ValueIdx

variable (x0 : (⟨S16x2048x64, .f32⟩ : BufTy).Contents (Elt Ideal)) (x1 : (⟨S4096x64, .f32⟩ : BufTy).Contents (Elt Ideal))

/-- The scaled queries at `(b, s, d)`: entry `d` of the query row `(b, s)` scaled to unit length. -/
theorem unitQuery_apply (b : Fin 16) (s : Fin 2048) (d : Fin 64) :
    val_main_v7 (F := Ideal) x0 (ix3 b s d) = unitVec (fun k => x0 (ix3 b s k)) d := by
  have hidx : ∀ k : Fin 64, idx_main_v1 (idx_main_v2 (idx_main_v6 (ix3 b s d))) k = ix3 b s k :=
    fun k => funext fun a => Fin.ext (by match a with | ⟨0, _⟩ => rfl | ⟨1, _⟩ => rfl | ⟨2, _⟩ => rfl)
  rw [val_main_v7_apply, val_main_v6_apply, val_main_v5_apply, val_main_v3_apply, val_main_v2_apply, val_main_v1_apply,
    val_main_v4_apply]
  simp only [val_main_v0_apply, val_main_cst_apply, val_main_cst_0_apply, Ideal.hostDivf_def, Ideal.hostUnary_sqrt_def,
    Ideal.maximumf_def, Ideal.mulf_def, Ideal.ofBits_def, Ideal.ofBits_zero_f32, zero_add, hidx]
  rfl

/-- The scaled bank at `(j, d)`: entry `d` of memory row `j` scaled to unit length. -/
theorem unitBank_apply (j : Fin 4096) (d : Fin 64) :
    val_main_v15 (F := Ideal) x1 (ix2 j d) = unitVec (fun k => x1 (ix2 j k)) d := by
  have hidx : ∀ k : Fin 64, idx_main_v9 (idx_main_v10 (idx_main_v14 (ix2 j d))) k = ix2 j k :=
    fun k => funext fun a => Fin.ext (by match a with | ⟨0, _⟩ => rfl | ⟨1, _⟩ => rfl)
  rw [val_main_v15_apply, val_main_v14_apply, val_main_v13_apply, val_main_v11_apply, val_main_v10_apply, val_main_v9_apply,
    val_main_v12_apply]
  simp only [val_main_v8_apply, val_main_cst_1_apply, val_main_cst_2_apply, Ideal.hostDivf_def, Ideal.hostUnary_sqrt_def,
    Ideal.maximumf_def, Ideal.mulf_def, Ideal.ofBits_def, Ideal.ofBits_zero_f32, zero_add, hidx]
  rfl

/-- The logits over the temperature at `(b, s, j)`. -/
theorem logit_apply (b : Fin 16) (s : Fin 2048) (j : Fin 4096) :
    val_main_v18 (F := Ideal) x0 x1 (ix3 b s j)
      = logit (unitVec fun k => x0 (ix3 b s k)) (fun j => unitVec fun k => x1 (ix2 j k)) j := by
  have hl : ∀ k : Fin 64, lidx_main_v16 (ix3 b s j) k = ix3 b s k := fun k => funext fun a => Fin.ext (by match a with | ⟨0, _⟩ => rfl | ⟨1, _⟩ => rfl | ⟨2, _⟩ => rfl)
  have hr : ∀ k : Fin 64, ridx_main_v16 (ix3 b s j) k = ix2 j k := fun k => funext fun a => Fin.ext (by match a with | ⟨0, _⟩ => rfl | ⟨1, _⟩ => rfl)
  rw [val_main_v18_apply, val_main_v16_apply, val_main_v17_apply]
  simp only [val_main_cst_3_apply, Ideal.hostDivf_def, Ideal.ofBits_def, hl, hr, unitQuery_apply, unitBank_apply, div_half]
  rfl

/-- The row maximum at `(b, s)`. -/
theorem rowMax_apply (b : Fin 16) (s : Fin 2048) :
    val_main_v21 (F := Ideal) x0 x1 (ix2 b s) = rowMax (fun j => val_main_v18 (F := Ideal) x0 x1 (ix3 b s j)) := by
  rw [val_main_v21_apply, val_main_v20_apply, val_main_cst_5_apply]
  unfold val_main_v19
  refine (congrArg (FloatOps.maximumf (F := Ideal) (FloatOps.ofBits .f32 0xFF800000#32))
    (LibReduceLast3.hostMaxLast_apply (val_main_v18 (F := Ideal) x0 x1) (val_main_cst_4 (F := Ideal))
      reducesTo_S16x2048x4096_S16x2048_d2 (by decide) h_S_ b s)).trans ?_
  show max (Ideal.ofBits .f32 0xFF800000#32)
    ((Finset.univ : Finset (Fin 4096)).fold max (Ideal.ofBits .f32 0xFF800000#32) fun j => val_main_v18 (F := Ideal) x0 x1 (ix3 b s j)) = _
  rw [Gcn.Lib.ofBits_neg_inf_f32, max_bot_left]
  rfl

/-- The exponentials at `(b, s, j)`. -/
theorem exp_apply (b : Fin 16) (s : Fin 2048) (j : Fin 4096) :
    val_main_v25 (F := Ideal) x0 x1 (ix3 b s j) = expShift (fun k => val_main_v18 (F := Ideal) x0 x1 (ix3 b s k)) j := by
  have hidx : idx_main_v22 (idx_main_v23 (ix3 b s j)) = ix2 b s := funext fun a => Fin.ext (by match a with | ⟨0, _⟩ => rfl | ⟨1, _⟩ => rfl)
  rw [val_main_v25_apply, val_main_v24_apply, val_main_v23_apply, val_main_v22_apply, hidx, rowMax_apply]
  rfl

/-- The softmax at `(b, s, j)`. -/
theorem softmax_apply (b : Fin 16) (s : Fin 2048) (j : Fin 4096) :
    val_main_v29 (F := Ideal) x0 x1 (ix3 b s j) = softmax (fun k => val_main_v18 (F := Ideal) x0 x1 (ix3 b s k)) j := by
  have hidx : ∀ k : Fin 4096, idx_main_v26 (idx_main_v27 (idx_main_v28 (ix3 b s j))) k = ix3 b s k :=
    fun k => funext fun a => Fin.ext (by match a with | ⟨0, _⟩ => rfl | ⟨1, _⟩ => rfl | ⟨2, _⟩ => rfl)
  rw [val_main_v29_apply, val_main_v28_apply, val_main_v27_apply, val_main_v26_apply]
  simp only [val_main_cst_6_apply, Ideal.hostDivf_def, Ideal.ofBits_def, Ideal.ofBits_zero_f32, zero_add, hidx, exp_apply]
  rfl

/-- The sparsified weights at an entry: the sparsifying map of the softmax there. -/
theorem shrink_apply (i : S16x2048x4096.Idx) :
    val_main_v37 (F := Ideal) x0 x1 i = shrink (val_main_v29 (F := Ideal) x0 x1 i) := by
  rw [val_main_v37_apply, val_main_v33_apply, val_main_v32_apply, val_main_v36_apply, val_main_v34_apply, val_main_v31_apply,
    val_main_v30_apply, val_main_call0_v0_apply, val_main_v35_apply]
  rfl

/-- The rescaled weights at `(b, s, j)`. -/
theorem renorm_apply (b : Fin 16) (s : Fin 2048) (j : Fin 4096) :
    val_main_v44 (F := Ideal) x0 x1 (ix3 b s j) = renorm (fun k => val_main_v37 (F := Ideal) x0 x1 (ix3 b s k)) j := by
  have hidx : ∀ k : Fin 4096, idx_main_v39 (idx_main_v40 (idx_main_v43 (ix3 b s j))) k = ix3 b s k :=
    fun k => funext fun a => Fin.ext (by match a with | ⟨0, _⟩ => rfl | ⟨1, _⟩ => rfl | ⟨2, _⟩ => rfl)
  rw [val_main_v44_apply, val_main_v43_apply, val_main_v42_apply, val_main_v40_apply, val_main_v39_apply, val_main_v41_apply]
  simp only [val_main_v38_apply, val_main_cst_9_apply, val_main_cst_10_apply, Ideal.hostDivf_def, Ideal.maximumf_def,
    Ideal.hostAbsf_def, Ideal.absf_def, Ideal.ofBits_def, Ideal.ofBits_zero_f32, zero_add, hidx]
  rfl

/-- THE WEIGHTS the host computes, at `(b, s, j)`: the addressing weights of the query row `(b, s)`. -/
theorem weights_apply (b : Fin 16) (s : Fin 2048) (j : Fin 4096) :
    val_main_v44 (F := Ideal) x0 x1 (ix3 b s j) = weights (fun k => x0 (ix3 b s k)) (fun j k => x1 (ix2 j k)) j := by
  rw [renorm_apply]
  unfold weights weightsOf
  refine congrArg (fun W => renorm W j) (funext fun k => ?_)
  rw [shrink_apply, softmax_apply]
  exact congrArg (fun L => shrink (softmax L k)) (funext fun j' => logit_apply x0 x1 b s j')

/-- THE READ-OUT the host computes, at `(b, s, d)`. -/
theorem readout_apply (b : Fin 16) (s : Fin 2048) (d : Fin 64) :
    val_main_v45 (F := Ideal) x0 x1 (ix3 b s d)
      = readout (weights (fun k => x0 (ix3 b s k)) (fun j k => x1 (ix2 j k))) (fun j k => x1 (ix2 j k)) d := by
  have hl : ∀ k : Fin 4096, lidx_main_v45 (ix3 b s d) k = ix3 b s k := fun k => funext fun a => Fin.ext (by match a with | ⟨0, _⟩ => rfl | ⟨1, _⟩ => rfl | ⟨2, _⟩ => rfl)
  have hr : ∀ k : Fin 4096, ridx_main_v45 (ix3 b s d) k = ix2 k d := fun k => funext fun a => Fin.ext (by match a with | ⟨0, _⟩ => rfl | ⟨1, _⟩ => rfl)
  rw [val_main_v45_apply]
  simp only [hl, hr, weights_apply]
  rfl

/-! ## The host's two results as whole arrays -/

/-- The host's weights are the weights array. -/
theorem weights_eq : val_main_v44 (F := Ideal) x0 x1 = weightArr x0 x1 := by
  funext i
  obtain ⟨b, s, j, rfl⟩ : ∃ (b : Fin 16) (s : Fin 2048) (j : Fin 4096), i = ix3 b s j := ⟨i 0, i 1, i 2, eq_ix3 i⟩
  exact weights_apply x0 x1 b s j

/-- The host's read-out is the read-out array. -/
theorem read_eq : val_main_v45 (F := Ideal) x0 x1 = readArr x0 x1 := by
  funext i
  obtain ⟨b, s, d, rfl⟩ : ∃ (b : Fin 16) (s : Fin 2048) (d : Fin 64), i = ix3 b s d := ⟨i 0, i 1, i 2, eq_ix3 i⟩
  exact readout_apply x0 x1 b s d

end Addressing.Host

end
-- ==== Proof.lean ====
/-
  Cosine-similarity addressing of a memory bank: a tiled kernel against the whole-array host computation, equal on
  the extended reals.

  Both programs take 16 × 2048 query rows of 64 entries and a bank of 4096 memory rows of 64 entries and return, for
  every query row, the 4096 addressing weights and the 64-entry read-out (`Proof/Addressing.lean`: unit-length
  scaling, inner products at temperature one half, softmax, sparsification, 1-norm rescaling, weighted sum of the
  bank's rows). The kernel's program lays the queries out flat, prepares the scaled bank on the host, computes
  256 query rows per grid point and folds the two flat results back; the host program computes everything on the
  whole arrays. Index by index both results are the same row-level function of the same query row and the same
  bank: the kernel's side is `Proof/Tile.lean` (one tile's values at an entry), `Proof/Region.lean` (the blocks and
  the flat arrays) and `Proof/Program.lean` (the folding and the run); the host's side is `Proof/HostRows.lean`. The
  two spellings differ in one product — the kernel doubles the logits where the host divides them by one half — and
  in one repeated maximum against `-∞`; no step needs the inputs finite. The three frames are the generated ones, the
  host program's being its run with the results dropped; nothing was rewritten on the way to the idealized kernel.
-/
import proofs.«108640_j28741921145271_1_alg».proof.Defs
import proofs.«108640_j28741921145271_1_alg».proof.Proof.Gen.Kernel
import proofs.«108640_j28741921145271_1_alg».proof.Proof.Gen.Kernel.Skeleton
import proofs.«108640_j28741921145271_1_alg».proof.Proof.Gen.Kernel.Launch
import proofs.«108640_j28741921145271_1_alg».proof.Proof.Gen.Kernel.Points
import proofs.«108640_j28741921145271_1_alg».proof.Proof.Gen.Kernel.Frame
import proofs.«108640_j28741921145271_1_alg».proof.Proof.Gen.KernelIdeal
import proofs.«108640_j28741921145271_1_alg».proof.Proof.Gen.KernelIdeal.Skeleton
import proofs.«108640_j28741921145271_1_alg».proof.Proof.Gen.KernelIdeal.Launch
import proofs.«108640_j28741921145271_1_alg».proof.Proof.Gen.KernelIdeal.Points
import proofs.«108640_j28741921145271_1_alg».proof.Proof.Gen.KernelIdeal.Frame
import proofs.«108640_j28741921145271_1_alg».proof.Proof.Gen.ReferenceIdeal
import proofs.«108640_j28741921145271_1_alg».proof.Proof.Gen.ReferenceIdeal.Run
import proofs.«108640_j28741921145271_1_alg».proof.Proof.Gen.ReferenceIdeal.Read
import proofs.«108640_j28741921145271_1_alg».proof.Proof.Gen.Pre_finite_inputs
import proofs.«108640_j28741921145271_1_alg».proof.Proof.Program
import proofs.«108640_j28741921145271_1_alg».proof.Proof.HostRows
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The host program's frame: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealized kernel is the kernel's own text: nothing to state. -/
theorem preserves : Cert.preserves_Kernel_KernelIdeal := trivial

/-- Both programs end with the read-out at `readArr` and the weights at `weightArr` of arguments that agree. -/
theorem algebraic : Cert.algebraic_KernelIdeal_ReferenceIdeal := by
  intro m ρ m' ρ' _ hagree
  refine ⟨_, _, Addressing.Program.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v45_eq, Addressing.Host.read_eq, (hagree c).1, (hagree c).2]
  · rw [(h c).2.1, Cert.ReferenceIdeal.Read.val_main_v44_eq, Addressing.Host.weights_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
